-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S1x1 : Shape := ⟨2, ![1, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S8192x256 .f32) (main_arg1 : FVec F S8192x256 .f32) (main_arg2 : FVec F S1x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S8192x256 : Shape := ⟨2, ![8192, 256]⟩
abbrev S1x1 : Shape := ⟨2, ![1, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x512 : Shape := ⟨2, ![8192, 512]⟩
abbrev S1024x256 : Shape := ⟨2, ![1024, 256]⟩
abbrev S1024x1 : Shape := ⟨2, ![1024, 1]⟩
abbrev S1x2048 : Shape := ⟨2, ![1, 2048]⟩
abbrev S2048x512 : Shape := ⟨2, ![2048, 512]⟩
abbrev S1024x512 : Shape := ⟨2, ![1024, 512]⟩
abbrev S2048x256 : Shape := ⟨2, ![2048, 256]⟩
abbrev S1024x2048 : Shape := ⟨2, ![1024, 2048]⟩
abbrev S1024 : Shape := ⟨1, ![1024]⟩

abbrev nBuf : Space → Nat
  | .hbm => 27
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S8192x256, .f32⟩
  | .hbm, ⟨5, _⟩ => ⟨S8192x256, .f32⟩
  | .hbm, ⟨6, _⟩ => ⟨S8192x256, .bf16⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S8192x256, .bf16⟩
  | .hbm, ⟨23, _⟩ => ⟨S8192x256, .f32⟩
  | .hbm, ⟨24, _⟩ => ⟨S8192x256, .bf16⟩
  | .hbm, ⟨25, _⟩ => ⟨S8192x512, .bf16⟩
  | .hbm, ⟨26, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S1x1, .f32⟩
  | .local _ .vmem, ⟨11, _⟩ => ⟨S1024x256, .f32⟩
  | .local _ .vmem, ⟨12, _⟩ => ⟨S1024x256, .f32⟩
  | .local _ .vmem, ⟨13, _⟩ => ⟨S1024x512, .f32⟩
  | .local _ .vmem, ⟨14, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S8192x256 : S_.BroadcastsInDim S8192x256 (![] : Fin 0 → Fin S8192x256.rank)
  bitsLt_bf16_f32 : FTy.bits .bf16 < FTy.bits .f32
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  concatenates_S8192x256_S8192x256_S8192x512_d1 : Shape.Concatenates [S8192x256, S8192x256] S8192x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S2048x512_o0_0_S2048x256 : S2048x512.Slices ![0, 0] S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  broadcasts_S1024x1_S1024x256 : S1024x1.Broadcasts S1024x256
  inb_S1x1_S1x1_0_0 : ∀ a, (![0, 0] : Fin 2 → Nat) a + S1x1.size a ≤ S1x1.size a
  h_S1x1 : 0 < S1x1.numel
  broadcasts_S1x1_S1024x256 : S1x1.Broadcasts S1024x256
  dot_S1024x256_S2048x256_S1024x2048_1_1_0_0_n_n_wf : DotDims.WF S1024x256 S2048x256 S1024x2048 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x512.size a
  hwx0_4 : ∀ i : grid0.Coords, EltTy.bits .bf16 = 32 ∨ (Rect.block (s := S8192x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S1x1 : Shape := ⟨2, ![1, 1]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S256x8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192x256, .f32⟩
  | .hbm, ⟨47, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S1x1_S8192x256_0_1 : S1x1.BroadcastsInDim S8192x256 (![0, 1] : Fin 2 → Fin S8192x256.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Pieces.lean ====
/-
  What each control case of the kernel body leaves behind, read back as a value.

  The body runs in three cases along the sample axis of the grid. At the first step of a row block
  (case A) both accumulators are zeroed and then updated; at the middle steps (case B) and at the
  last step (case C) they are updated from what the step before left. An update of the wide
  accumulator `acc` [1024, 512] is `acc + weights · [r | r²]` (`k0_pay7`); an update of the row sums
  `wsum` [1024, 1] is `wsum + Σ_n weights` (`k0_pay6`). At the last step the output block is the
  closing formula (`k0_pay1`) of the two column halves of the new `acc`, the block of `x`, the new
  `wsum` and `W`. Every statement holds at any float instance: each case stores each buffer whole,
  and a load of a buffer stored whole reads the stored payload (through a rectangle, when the load is
  of a column half).
-/
import proofs.«164604_j42932493090900_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

theorem acc_A (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) :
    sout0_A_0 c i arg2 harg2 arg3 harg3 arg4 harg4 arg5 harg5 arg6 harg6 arg7 harg7 arg8 harg8 arg9 harg9 arg10 harg10 hc0 hc1 x0 x1 x2 x3 x4 x5 = k0_pay7 x0 x4 x2 x3 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

theorem sum_A (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) :
    sout0_A_1 c i arg2 harg2 arg3 harg3 arg4 harg4 arg5 harg5 arg6 harg6 arg7 harg7 arg8 harg8 arg9 harg9 arg10 harg10 hc0 hc1 x0 x1 x2 x3 x4 x5 = k0_pay6 x0 x4 x2 x3 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

theorem acc_B (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) (xs0 : Vec F S1024x512 .f32) (xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay7 x0 x4 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

theorem sum_B (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) (xs0 : Vec F S1024x512 .f32) (xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay6 x0 x4 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

theorem acc_C (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) (xs0 : Vec F S1024x512 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay7 x0 x4 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

theorem sum_C (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) (xs0 : Vec F S1024x512 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay6 x0 x4 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

/-- A load through any rectangle `r` of a buffer that one store filled whole reads that store's payload
    through `r`. -/
theorem readCov_of_whole {S : Shape} {e : EltTy} {κ : Kind} {sp : Space} (v : View sig κ sp S e)
    {off : Fin S.rank → Nat} (h : off = fun _ => 0) (inb : ∀ a, off a + S.size a ≤ S.size a)
    (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩),
    View.canon_unit_zero h]

/-- The left column half `[:, 0:256]` of the wide accumulator. -/
abbrev lo : Rect S1024x512 := Rect.unit (s := S1024x512) ![0, 0] S1024x256.size inb_S1024x512_S1024x256_0_0
/-- The right column half `[:, 256:512]`. -/
abbrev hi : Rect S1024x512 := Rect.unit (s := S1024x512) ![0, 256] S1024x256.size inb_S1024x512_S1024x256_0_256

set_option maxHeartbeats 1000000 in
theorem out_C (c : Dev nD) (i : grid0.Coords) (arg2 : Memref sig .tc .vmem S1024x256 .bf16) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S1x1 .f32) (harg7 : arg7.IsWhole) (arg8 : Memref sig .tc .vmem S1024x256 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x256 .bf16) (x1 : Vec F S1024x256 .f32) (x2 : Vec F S1024x1 .f32) (x3 : Vec F S1x2048 .f32) (x4 : Vec F S2048x512 .bf16) (x5 : Vec F S1x1 .f32) (xs0 : Vec F S1024x512 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay1 (View.ld (k0_pay7 x0 x4 x2 x3 xs0) lo) (View.ld (k0_pay7 x0 x4 x2 x3 xs0) hi) x1 (k0_pay6 x0 x4 x2 x3 xs1) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [readCov_of_whole (S := S1024x512) _ hz, readCov_of_whole (S := S1024x1) _ hz, View.readAt_eq_ld, harg2.read_unread, harg3.read_unread, harg4.read_unread, harg5.read_unread,
    harg6.read_unread, harg7.read_unread, harg9.read_unread, harg10.read_unread,
    View.ld_unit_zero (S := S1024x256) hz, View.ld_unit_zero (S := S2048x512) hz, View.ld_unit_zero (S := S1024x1) hz,
    View.ld_unit_zero (S := S1x2048) hz, View.ld_unit_zero (S := S1024x512) hz, View.ld_unit_zero (S := S1x1) hz]

end Cert.KernelIdeal.Pieces
end
-- ==== Proof.Payload.lean ====
/-
  The kernel body's arithmetic read at one position, at the ideal instance.

  `k0_pay5` is the tile of weights: at row `p` of the query block and row `q` of the sample block it is
  the exponential of (the pre-scaled cross term, a contraction over the 256 features against the left
  half of the packed sample block) + (the query's pre-scaled squared norm) + (the sample's). `k0_pay6`
  adds the tile's row sums to the running row sums; `k0_pay7` adds the tile times the packed sample
  block `[r | r²]` to the running wide accumulator; `k0_pay2` and `k0_pay3` are the zero resets; and
  `k0_pay1` is the closing formula `1 / (W · (acc₂ − (2x)·acc₁ + x²·wsum) + 0.001)`.
  A change of float format is the identity here, a matmul into a zero accumulator is the plain sum of
  products, and a lane sum is the plain sum.
-/
import proofs.«164604_j42932493090900_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- Two rank-2 indices with the same coordinates are one index. -/
theorem idx2_ext {n0 n1 : Nat} (i j : (⟨2, ![n0, n1]⟩ : Shape).Idx) (h0 : (i 0).val = (j 0).val)
    (h1 : (i 1).val = (j 1).val) : i = j := by
  funext a; apply Fin.ext
  match a with
  | ⟨0, _⟩ => exact h0
  | ⟨1, _⟩ => exact h1

/-- Column `k` of the left half of a 512-wide row (the samples `r`). -/
def colLo (k : Fin 256) : Fin 512 := ⟨k.val, by omega⟩
/-- Column `k` of the right half (the squared samples `r²`). -/
def colHi (k : Fin 256) : Fin 512 := ⟨256 + k.val, by omega⟩

/-! ## Layout operations of this kernel's shapes read at coordinates -/

/-- An `[a, 1]` column broadcast to `[a, b]` reads, at `(p, c)`, the column at `p`. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem bcast_one {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` vector cast to an `[a, 1]` column reads, at `(p, 0)`, the vector at `p`. -/
theorem cast_col {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-! ## The two matrix products and the lane sum -/

/-- The cross term's product: both operands contract their feature axis, so entry `(p, q)` is the sum over
    the features of row `p` of the left operand times row `q` of the right. -/
theorem mm_cross (l : FVec Ideal S1024x256 .bf16) (r : FVec Ideal S2048x256 .bf16) (p : Fin 1024) (q : Fin 2048) :
    matmul dot_S1024x256_S2048x256_S1024x2048_1_1_0_0_n_n none l r (constant (F := Ideal) S1024x2048 .f32 0x00000000#32) (ix2 p q)
      = ∑ k : Fin 256, l (ix2 p k) * r (ix2 q k) := by
  refine (Ideal.matmul_constant_zero_apply dot_S1024x256_S2048x256_S1024x2048_1_1_0_0_n_n none l r (ix2 p q)).trans ?_
  rw [← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q)
      ((contrEquiv1 dot_S1024x256_S2048x256_S1024x2048_1_1_0_0_n_n 256 rfl rfl).symm k) = ix2 p k :=
    idx2_ext _ _ (by
        unfold DotDims.lhsIdx
        rw [dif_neg (show ¬(0 : Fin S1024x256.rank) ∈ dot_S1024x256_S2048x256_S1024x2048_1_1_0_0_n_n.lhsBatch by decide),
          dif_pos (show (0 : Fin S1024x256.rank) ∈ dot_S1024x256_S2048x256_S1024x2048_1_1_0_0_n_n.lhsNonContracting by decide)]
        rfl)
      ((dot_S1024x256_S2048x256_S1024x2048_1_1_0_0_n_n.lhsIdx_val_of_single rfl _ _).trans hk)
  have er : dot_S1024x256_S2048x256_S1024x2048_1_1_0_0_n_n.rhsIdx (ix2 p q)
      ((contrEquiv1 dot_S1024x256_S2048x256_S1024x2048_1_1_0_0_n_n 256 rfl rfl).symm k) = ix2 q k :=
    idx2_ext _ _ (by
        unfold DotDims.rhsIdx
        rw [dif_neg (show ¬(0 : Fin S2048x256.rank) ∈ dot_S1024x256_S2048x256_S1024x2048_1_1_0_0_n_n.rhsBatch by decide),
          dif_pos (show (0 : Fin S2048x256.rank) ∈ dot_S1024x256_S2048x256_S1024x2048_1_1_0_0_n_n.rhsNonContracting by decide)]
        rfl)
      ((dot_S1024x256_S2048x256_S1024x2048_1_1_0_0_n_n.rhsIdx_val_of_single rfl _ _).trans hk)
  rw [el, er]

/-- The weights times the packed samples: entry `(p, col)` is the sum over the tile's sample rows `q`. -/
theorem mm_acc (l : FVec Ideal S1024x2048 .bf16) (r : FVec Ideal S2048x512 .bf16) (p : Fin 1024) (col : Fin 512) :
    matmul dot_S1024x2048_S2048x512_S1024x512_1_0_0_1_n_n none l r (constant (F := Ideal) S1024x512 .f32 0x00000000#32) (ix2 p col)
      = ∑ q : Fin 2048, l (ix2 p q) * r (ix2 q col) := by
  refine (Ideal.matmul_constant_zero_apply dot_S1024x2048_S2048x512_S1024x512_1_0_0_1_n_n none l r (ix2 p col)).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p col)
      ((contrEquiv1 dot_S1024x2048_S2048x512_S1024x512_1_0_0_1_n_n 2048 rfl rfl).symm k) = ix2 p k :=
    idx2_ext _ _ (by
        unfold DotDims.lhsIdx
        rw [dif_neg (show ¬(0 : Fin S1024x2048.rank) ∈ dot_S1024x2048_S2048x512_S1024x512_1_0_0_1_n_n.lhsBatch by decide),
          dif_pos (show (0 : Fin S1024x2048.rank) ∈ dot_S1024x2048_S2048x512_S1024x512_1_0_0_1_n_n.lhsNonContracting by decide)]
        rfl)
      ((dot_S1024x2048_S2048x512_S1024x512_1_0_0_1_n_n.lhsIdx_val_of_single rfl _ _).trans hk)
  have er : dot_S1024x2048_S2048x512_S1024x512_1_0_0_1_n_n.rhsIdx (ix2 p col)
      ((contrEquiv1 dot_S1024x2048_S2048x512_S1024x512_1_0_0_1_n_n 2048 rfl rfl).symm k) = ix2 k col :=
    idx2_ext _ _ ((dot_S1024x2048_S2048x512_S1024x512_1_0_0_1_n_n.rhsIdx_val_of_single rfl _ _).trans hk) (by
        unfold DotDims.rhsIdx
        rw [dif_neg (show ¬(1 : Fin S2048x512.rank) ∈ dot_S1024x2048_S2048x512_S1024x512_1_0_0_1_n_n.rhsBatch by decide),
          dif_pos (show (1 : Fin S2048x512.rank) ∈ dot_S1024x2048_S2048x512_S1024x512_1_0_0_1_n_n.rhsNonContracting by decide)]
        rfl)
  rw [el, er]

/-- The lane sum of a `[1024, 2048]` tile at row `p` is the sum over its 2048 lanes. -/
theorem row_sum (src : FVec Ideal S1024x2048 .f32) (p : Fin 1024) :
    multiReduction .add [1] S1024 src 0x00000000#32 reduces_S1024x2048_S1024 (.inl rfl) rfl (ix1 p)
      = ∑ q : Fin 2048, src (ix2 p q) :=
  (Ideal.multiReduction_add_single src 0x00000000#32 reduces_S1024x2048_S1024 (.inl rfl) rfl (ix1 p)).trans
    (Finset.sum_congr rfl fun q _ => congrArg src (idx2_ext _ _ rfl rfl))

/-- The left half of a packed sample block, sliced off, reads the block at the same row and column. -/
theorem slice_lo (v : FVec Ideal S2048x512 .bf16) (q : Fin 2048) (k : Fin 256) :
    extractStridedSlice S2048x256 ![0, 0] v slices_S2048x512_o0_0_S2048x256 (ix2 q k) = v (ix2 q (colLo k)) :=
  extractStridedSlice_apply (s := S2048x512) (t := S2048x256) ![0, 0] v slices_S2048x512_o0_0_S2048x256 (ix2 q k)
    (ix2 q (colLo k)) (fun a => by
      match a with
      | ⟨0, _⟩ => exact (Nat.zero_add _).symm
      | ⟨1, _⟩ => exact (Nat.zero_add _).symm)

/-- The samples' row of squared norms broadcast down the tile reads the row at the lane. -/
theorem bcast_row (v : FVec Ideal S1x2048 .f32) (p : Fin 1024) (q : Fin 2048) :
    broadcastTo S1024x2048 v broadcasts_S1x2048_S1024x2048 (ix2 p q) = v (ix2 (0 : Fin 1) q) :=
  broadcastTo_1b_ab_apply (a := 1024) (b := 2048) v broadcasts_S1x2048_S1024x2048 p q

/-- The queries' column of squared norms broadcast across the tile reads the column at the row. -/
theorem bcast_qcol (v : FVec Ideal S1024x1 .f32) (p : Fin 1024) (q : Fin 2048) :
    broadcastTo S1024x2048 v broadcasts_S1024x1_S1024x2048 (ix2 p q) = v (ix2 p (0 : Fin 1)) :=
  bcast_col (a := 1024) (b := 2048) v broadcasts_S1024x1_S1024x2048 p q

/-- The row sums broadcast across the output block read the column at the row. -/
theorem bcast_wsum (v : FVec Ideal S1024x1 .f32) (p : Fin 1024) (d : Fin 256) :
    broadcastTo S1024x256 v broadcasts_S1024x1_S1024x256 (ix2 p d) = v (ix2 p (0 : Fin 1)) :=
  bcast_col (a := 1024) (b := 256) v broadcasts_S1024x1_S1024x256 p d

/-- `W` broadcast over the output block reads its one entry. -/
theorem bcast_w (v : FVec Ideal S1x1 .f32) (p : Fin 1024) (d : Fin 256) :
    broadcastTo S1024x256 v broadcasts_S1x1_S1024x256 (ix2 p d) = v (ix2 (0 : Fin 1) (0 : Fin 1)) :=
  bcast_one (a := 1024) (b := 256) v broadcasts_S1x1_S1024x256 p d

/-! ## The payloads -/

variable (x0 : FVec Ideal S1024x256 .bf16) (x4 : FVec Ideal S2048x512 .bf16) (x2 : FVec Ideal S1024x1 .f32)
  (x3 : FVec Ideal S1x2048 .f32)

set_option maxHeartbeats 1000000 in
/-- The weight at row `p` of the query block and row `q` of the sample block. -/
theorem weight_apply (p : Fin 1024) (q : Fin 2048) :
    k0_pay5 (F := Ideal) x0 x4 x2 x3 (ix2 p q)
      = Ideal.exp (((∑ k : Fin 256, x0 (ix2 p k) * x4 (ix2 q (colLo k))) + x2 (ix2 p (0 : Fin 1))) + x3 (ix2 (0 : Fin 1) q)) := by
  unfold k0_pay5 k0_pay4
  dsimp only
  refine congrArg Ideal.exp (congrArg₂ (· + ·) (congrArg₂ (· + ·) ?_ ?_) ?_)
  · refine (mm_cross _ _ p q).trans (Finset.sum_congr rfl fun k _ => congrArg₂ (· * ·) ?_ ?_)
    · exact congrFun (shapeCast_self x0 _) _
    · exact (slice_lo _ q k).trans (congrFun (shapeCast_self x4 _) _)
  · exact (bcast_qcol _ p q).trans (congrFun (shapeCast_self x2 _) _)
  · exact (bcast_row _ p q).trans (congrFun (shapeCast_self x3 _) _)

/-- The row sums after the step: what they were plus the tile's row sum. -/
theorem sum_apply (xs1 : FVec Ideal S1024x1 .f32) (p : Fin 1024) :
    k0_pay6 (F := Ideal) x0 x4 x2 x3 xs1 (ix2 p (0 : Fin 1))
      = xs1 (ix2 p (0 : Fin 1)) + ∑ q : Fin 2048, k0_pay5 (F := Ideal) x0 x4 x2 x3 (ix2 p q) := by
  unfold k0_pay6
  dsimp only
  refine (congrFun (shapeCast_self _ _) _).trans (congrArg₂ (· + ·) rfl ?_)
  exact (cast_col _ _ p).trans (row_sum _ p)

/-- The wide accumulator after the step: what it was plus the tile times the packed samples. -/
theorem acc_apply (xs0 : FVec Ideal S1024x512 .f32) (p : Fin 1024) (col : Fin 512) :
    k0_pay7 (F := Ideal) x0 x4 x2 x3 xs0 (ix2 p col)
      = xs0 (ix2 p col) + ∑ q : Fin 2048, k0_pay5 (F := Ideal) x0 x4 x2 x3 (ix2 p q) * x4 (ix2 q col) := by
  unfold k0_pay7 k0_pay4
  dsimp only
  refine (congrFun (shapeCast_self _ _) _).trans (congrArg₂ (· + ·) rfl ?_)
  refine (mm_acc _ _ p col).trans (Finset.sum_congr rfl fun q _ => congrArg₂ (· * ·) rfl ?_)
  exact congrFun (shapeCast_self x4 _) _

/-- The reset of the wide accumulator is zero everywhere. -/
theorem acc_zero (i : S1024x512.Idx) : k0_pay2 (F := Ideal) i = Ideal.ofBits .f32 0x00000000#32 := by
  unfold k0_pay2
  exact congrFun (shapeCast_self _ _) _

/-- The reset of the row sums is zero everywhere. -/
theorem sum_zero (i : S1024x1.Idx) : k0_pay3 (F := Ideal) i = Ideal.ofBits .f32 0x00000000#32 := by
  unfold k0_pay3
  exact congrFun (shapeCast_self _ _) _

/-- The closing formula at row `p`, column `d` of the block. -/
theorem out_apply (a1 a2 x : FVec Ideal S1024x256 .f32) (ws : FVec Ideal S1024x1 .f32) (w : FVec Ideal S1x1 .f32)
    (p : Fin 1024) (d : Fin 256) :
    k0_pay1 (F := Ideal) a1 a2 x ws w (ix2 p d)
      = Ideal.div (Ideal.ofBits .f32 0x3F800000#32)
          (w (ix2 (0 : Fin 1) (0 : Fin 1))
              * ((a2 (ix2 p d) - (Ideal.ofBits .f32 0x40000000#32 * x (ix2 p d)) * a1 (ix2 p d))
                + (x (ix2 p d) * x (ix2 p d)) * ws (ix2 p (0 : Fin 1)))
            + Ideal.ofBits .f32 0x3A83126F#32) := by
  unfold k0_pay1
  refine congrArg (Ideal.div _) (congrArg₂ (· + ·) (congrArg₂ (· * ·) ?_ (congrArg₂ (· + ·) rfl (congrArg₂ (· * ·) rfl ?_))) rfl)
  · exact bcast_w _ p d
  · exact bcast_wsum _ p d

end Cert.KernelIdeal.Payload

end
-- ==== Proof.Consts.lean ====
/-
  The float literals the two programs spell differently, as the extended reals their bit patterns
  denote: the kernel scales `x` by `1/64` and the squared norms by `-1/128`, where the reference
  multiplies the cross term by `2` and divides by `128`. All four are exact dyadic numbers, so the
  two exponents are the same real number. (Literals that both programs share, `0.001` and `1.0`, are
  never evaluated.) Also: the coercion of a finite sum of reals is the sum of the coercions.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `0x3C800000` is `2^-6 = 1/64`. -/
theorem ofBits_inv64 : Ideal.ofBits .f32 0x3C800000#32 = ((1 / 64 : ℝ) : EReal) := by
  simp [Ideal.ofBits, Ideal.ieee, -EReal.coe_mul]; norm_num

/-- `0xBC000000` is `-2^-7 = -1/128`. -/
theorem ofBits_neg_inv128 : Ideal.ofBits .f32 0xBC000000#32 = ((-(1 / 128) : ℝ) : EReal) := by
  simp [Ideal.ofBits, Ideal.ieee, -EReal.coe_mul]; norm_num

/-- `0x40000000` is `2`. -/
theorem ofBits_two : Ideal.ofBits .f32 0x40000000#32 = ((2 : ℝ) : EReal) := by
  simp [Ideal.ofBits, Ideal.ieee, -EReal.coe_mul]; norm_num

/-- `0x43000000` is `128`. -/
theorem ofBits_128 : Ideal.ofBits .f32 0x43000000#32 = ((128 : ℝ) : EReal) := by
  simp [Ideal.ofBits, Ideal.ieee, -EReal.coe_mul]; norm_num

/-- The sum of the coercions of finitely many reals is the coercion of their sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

end Cert.Consts

end
-- ==== Proof.Exponent.lean ====
/-
  The law that joins the two weights. For one row `x` of `x_t` and one row `r` of `reference_sample`,
  both of finite entries, the kernel's exponent
      Σ_k (x_k / 64) r_k  -  (Σ_k x_k²) / 128  -  (Σ_k r_k²) / 128
  and the reference's
      -( (Σ_k x_k² + Σ_k r_k²) - 2 Σ_k x_k r_k ) / 128
  are one real number: distribute the division by 128 and the sign over the three sums. The law needs
  finiteness (on the extended reals neither the sign nor the quotient distributes over a sum with
  infinite terms), which is why the rows are given as real-valued.
-/
import proofs.«164604_j42932493090900_2_alg».proof.Proof.Consts

noncomputable section

namespace Cert.Exponent

open Idealize.ShloMosaic Cert.Consts

/-- The identity over the reals. -/
theorem real_eq (x r : Fin 256 → ℝ) :
    ((∑ k : Fin 256, x k * (1 / 64) * r k) + -(1 / 128) * ∑ k : Fin 256, x k * x k) + -(1 / 128) * ∑ k : Fin 256, r k * r k
      = -(((∑ k : Fin 256, x k * x k) + ∑ k : Fin 256, r k * r k) - 2 * ∑ k : Fin 256, x k * r k) * (1 / 128) := by
  have h : ∑ k : Fin 256, x k * (1 / 64) * r k = (1 / 64) * ∑ k : Fin 256, x k * r k := by
    rw [Finset.mul_sum]; exact Finset.sum_congr rfl fun k _ => by ring
  rw [h]; ring

/-- The same on the extended reals, over the literals as the two programs print them: the kernel's
    exponent (pre-scaled cross term plus the two pre-scaled squared norms, each norm a host sum from
    `+0.0`) is the reference's (the negated squared distance divided by `128`). -/
theorem eq (x r : Fin 256 → ℝ) :
    (((∑ k : Fin 256, ((x k : EReal) * Ideal.ofBits .f32 0x3C800000#32) * (r k : EReal))
        + Ideal.ofBits .f32 0xBC000000#32 * (Ideal.ofBits .f32 0x00000000#32 + ∑ k : Fin 256, (x k : EReal) * (x k : EReal)))
        + Ideal.ofBits .f32 0xBC000000#32 * (Ideal.ofBits .f32 0x00000000#32 + ∑ k : Fin 256, (r k : EReal) * (r k : EReal)))
      = Ideal.div (-(((Ideal.ofBits .f32 0x00000000#32 + ∑ k : Fin 256, (x k : EReal) * (x k : EReal))
            + (Ideal.ofBits .f32 0x00000000#32 + ∑ k : Fin 256, (r k : EReal) * (r k : EReal)))
          - Ideal.ofBits .f32 0x40000000#32 * ∑ k : Fin 256, (x k : EReal) * (r k : EReal)))
        (Ideal.ofBits .f32 0x43000000#32) := by
  rw [ofBits_inv64, ofBits_neg_inv128, ofBits_zero, ofBits_two, ofBits_128,
    Ideal.div_coe (by norm_num : (128 : ℝ) ≠ 0)]
  simp only [zero_add, ← EReal.coe_mul, coe_sum, ← EReal.coe_add, ← EReal.coe_sub, ← EReal.coe_neg]
  exact congrArg _ (real_eq x r)

end Cert.Exponent

end
-- ==== Proof.Spec.lean ====
/-
  What both programs compute, as functions of the three argument arrays read as extended reals:
  `X = x_t` and `R = reference_sample` of shape [8192, 256], `W` of shape [1, 1].

  For a query row `b` and a sample row `n` the WEIGHT is the exponential of minus the squared distance
  of the two rows over `2·8² = 128`. The kernel spells the exponent with the cross term pre-scaled by
  `1/64` and each squared norm by `-1/128` (`wK`); the reference spells it as the negated expanded
  squared distance divided by `128` (`wR`). On rows of finite entries they are one number (`w_eq`).

  From the weights both programs form, for every column `d`,
      M = Σ_n w·r² − (2x)·Σ_n w·r + x²·Σ_n w        and the result    1 / (W·M + 0.001),
  with the same association of the operations (`out`). The kernel takes each sum over `n` in four
  tiles of 2048; regrouping a sum needs no finiteness.
-/
import proofs.«164604_j42932493090900_2_alg».proof.Proof.Exponent
import Idealize.ShloMosaic.Lib.ValueIdx

noncomputable section

namespace Cert.Spec

open Idealize.ShloMosaic Idealize.ShloMosaic.ValueIdx

/-- The shape of `x_t` and of `reference_sample`. -/
abbrev A : Shape := ⟨2, ![8192, 256]⟩
/-- The shape of `W`. -/
abbrev W11 : Shape := ⟨2, ![1, 1]⟩

/-- The squared norm of row `b`, as a host sum from `+0.0`. -/
def sq (X : A.Idx → EReal) (b : Fin 8192) : EReal :=
  Ideal.ofBits .f32 0x00000000#32 + ∑ k : Fin 256, X (ix2 b k) * X (ix2 b k)

/-- The weight of sample row `n` for query row `b`, in the kernel's spelling. -/
def wK (X R : A.Idx → EReal) (b n : Fin 8192) : EReal :=
  Ideal.exp (((∑ k : Fin 256, (X (ix2 b k) * Ideal.ofBits .f32 0x3C800000#32) * R (ix2 n k))
      + Ideal.ofBits .f32 0xBC000000#32 * sq X b)
    + Ideal.ofBits .f32 0xBC000000#32 * sq R n)

/-- The same weight in the reference's spelling. -/
def wR (X R : A.Idx → EReal) (b n : Fin 8192) : EReal :=
  Ideal.exp (Ideal.div (-((sq X b + sq R n)
      - Ideal.ofBits .f32 0x40000000#32 * ∑ k : Fin 256, X (ix2 b k) * R (ix2 n k)))
    (Ideal.ofBits .f32 0x43000000#32))

/-- An array all of whose entries are real numbers. -/
def Finite (X : A.Idx → EReal) : Prop := ∀ i, X i ≠ ⊤ ∧ X i ≠ ⊥

/-- On arrays of finite entries the two spellings of the weight agree. -/
theorem w_eq {X R : A.Idx → EReal} (hX : Finite X) (hR : Finite R) (b n : Fin 8192) :
    wK X R b n = wR X R b n := by
  have hx : ∀ k : Fin 256, ∃ y : ℝ, X (ix2 b k) = (y : EReal) := fun k =>
    ⟨(X (ix2 b k)).toReal, (EReal.coe_toReal (hX _).1 (hX _).2).symm⟩
  have hr : ∀ k : Fin 256, ∃ y : ℝ, R (ix2 n k) = (y : EReal) := fun k =>
    ⟨(R (ix2 n k)).toReal, (EReal.coe_toReal (hR _).1 (hR _).2).symm⟩
  choose x hx using hx
  choose r hr using hr
  unfold wK wR sq
  simp only [hx, hr]
  rw [Cert.Exponent.eq x r]

/-- The result at row `b`, column `d`, from a table of weights: `1 / (W · M + 0.001)`. -/
def out (w : Fin 8192 → Fin 8192 → EReal) (X R : A.Idx → EReal) (W : W11.Idx → EReal)
    (b : Fin 8192) (d : Fin 256) : EReal :=
  Ideal.div (Ideal.ofBits .f32 0x3F800000#32)
    (W (ix2 0 0)
        * (((∑ n : Fin 8192, w b n * (R (ix2 n d) * R (ix2 n d)))
              - (Ideal.ofBits .f32 0x40000000#32 * X (ix2 b d)) * (∑ n : Fin 8192, w b n * R (ix2 n d)))
            + (X (ix2 b d) * X (ix2 b d)) * (∑ n : Fin 8192, w b n))
      + Ideal.ofBits .f32 0x3A83126F#32)

/-- Hence, on finite arrays, the result is the same whichever spelling of the weight it is built from. -/
theorem out_congr {X R : A.Idx → EReal} (hX : Finite X) (hR : Finite R) (W : W11.Idx → EReal)
    (b : Fin 8192) (d : Fin 256) : out (wK X R) X R W b d = out (wR X R) X R W b d := by
  have h : wK X R = wR X R := funext fun b => funext fun n => w_eq hX hR b n
  rw [h]

end Cert.Spec

end
-- ==== Proof.Blocks.lean ====
/-
  What the kernel body finds in its input blocks, in terms of the three argument arrays.

  Grid point `t` of the 8 × 4 grid works on query rows `1024·(t/4) + p` (`qrow`) and sample rows
  `2048·(t%4) + q` (`srow`). Before the region the host has computed: `x_t / 64` (staged as window 0),
  the column of pre-scaled squared norms `−(Σ_k x²)/128` of the queries (window 2), the row of
  pre-scaled squared norms of the samples (window 3: the same column, reshaped to a row), and the
  packed samples `[r | r²]` (window 4). Windows 1 and 5 stage `x_t` and `W` themselves. Each block
  read at a position is the array read at the block's offset plus the position.
-/
import proofs.«164604_j42932493090900_2_alg».proof.Proof.Gen.KernelIdeal.Frame
import proofs.«164604_j42932493090900_2_alg».proof.Proof.Payload
import proofs.«164604_j42932493090900_2_alg».proof.Proof.Spec
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Cert.KernelIdeal.Payload (colLo colHi idx2_ext)

/-- The query row that position `p` of grid point `n`'s block stands for. -/
def qrow (n : ℕ) (p : Fin 1024) : Fin 8192 := ⟨1024 * (n / 4 % 8) + p.val, by omega⟩
/-- The sample row that position `q` of grid point `n`'s block stands for. -/
def srow (n : ℕ) (q : Fin 2048) : Fin 8192 := ⟨2048 * (n % 4) + q.val, by omega⟩

/-! ## Host operations of these shapes read at coordinates -/

/-- A scalar constant broadcast to `[8192, 256]` is the constant everywhere. -/
theorem splat_A (w : BitVec 32) (j : S8192x256.Idx) :
    broadcastInDim S8192x256 ![] bcast_S_S8192x256 (constant (F := Ideal) S_ .f32 w) j = Ideal.ofBits .f32 w :=
  broadcastInDim_apply _ bcast_S_S8192x256 (constant (F := Ideal) S_ .f32 w) j ix0 (fun a => a.elim0)

/-- A scalar constant broadcast to `[8192, 1]` is the constant everywhere. -/
theorem splat_col (w : BitVec 32) (j : S8192x1.Idx) :
    broadcastInDim S8192x1 ![] bcast_S_S8192x1 (constant (F := Ideal) S_ .f32 w) j = Ideal.ofBits .f32 w :=
  broadcastInDim_apply _ bcast_S_S8192x1 (constant (F := Ideal) S_ .f32 w) j ix0 (fun a => a.elim0)

/-- An `[8192]` vector laid out as an `[8192, 1]` column reads the vector at the row. -/
theorem col_of_vec (v : FVec Ideal S8192 .f32) (b : Fin 8192) :
    broadcastInDim S8192x1 ![0] bcast_S8192_S8192x1_0 v (ix2 b (0 : Fin 1)) = v (ix1 b) :=
  broadcastInDim_apply _ bcast_S8192_S8192x1_0 v (ix2 b (0 : Fin 1)) (ix1 b) (fun a => by
    match a with
    | ⟨0, _⟩ => rfl)

/-- The host's sum of squares of row `b`. -/
theorem host_sq (X : FVec Ideal S8192x256 .f32) (b : Fin 8192) :
    Host.reduceAdd (F := Ideal) (mulf X X) (constant (F := Ideal) S_ .f32 0x00000000#32) reducesTo_S8192x256_S8192_d1 h_S_ (ix1 b)
      = Cert.Spec.sq X b := by
  simp only [Host.reduceAdd, Ideal.hostReduceAdd_def]
  rw [Ideal.hostReduceAdd_single reducesTo_S8192x256_S8192_d1 (by decide)]
  unfold Cert.Spec.sq
  refine congrArg₂ (· + ·) rfl (Finset.sum_congr rfl fun k _ => ?_)
  exact congrArg (mulf X X) (idx2_ext _ _ rfl rfl)

/-- An `[8192, 1]` column reshaped to a `[1, 8192]` row reads the column at the lane. -/
theorem row_of_col (v : FVec Ideal S8192x1 .f32) (n : Fin 8192) :
    shapeCast S1x8192 v shapeCasts_S8192x1_S1x8192 (ix2 (0 : Fin 1) n) = v (ix2 n (0 : Fin 1)) :=
  shapeCast_apply v shapeCasts_S8192x1_S1x8192 (ix2 (0 : Fin 1) n) (ix2 n (0 : Fin 1)) (by
    rw [Shape.rowMajor_val_two, Shape.rowMajor_val_two]
    show n.val * 1 + 0 = 0 * 8192 + n.val
    omega)

/-- The packed samples `[r | r²]`: the left half reads the first piece. -/
theorem cat_lo (a b : FVec Ideal S8192x256 .bf16) (n : Fin 8192) (k : Fin 256) :
    concatenate S8192x512 1 [⟨S8192x256, a⟩, ⟨S8192x256, b⟩] concatenates_S8192x256_S8192x256_S8192x512_d1 (ix2 n (colLo k))
      = a (ix2 n k) :=
  concatenate_apply_piece (t := S8192x512) 1 [⟨S8192x256, a⟩, ⟨S8192x256, b⟩] concatenates_S8192x256_S8192x256_S8192x512_d1
    (ix2 n (colLo k)) 0 (by simp) S8192x256 a rfl rfl 0 rfl (ix2 n k)
    (fun ax hax => by
      match ax with
      | ⟨0, _⟩ => rfl
      | ⟨1, _⟩ => exact absurd rfl hax)
    (Nat.zero_add _)

/-- … and the right half reads the second piece. -/
theorem cat_hi (a b : FVec Ideal S8192x256 .bf16) (n : Fin 8192) (k : Fin 256) :
    concatenate S8192x512 1 [⟨S8192x256, a⟩, ⟨S8192x256, b⟩] concatenates_S8192x256_S8192x256_S8192x512_d1 (ix2 n (colHi k))
      = b (ix2 n k) :=
  concatenate_apply_piece (t := S8192x512) 1 [⟨S8192x256, a⟩, ⟨S8192x256, b⟩] concatenates_S8192x256_S8192x256_S8192x512_d1
    (ix2 n (colHi k)) 1 (by simp) S8192x256 b rfl rfl 256 rfl (ix2 n k)
    (fun ax hax => by
      match ax with
      | ⟨0, _⟩ => rfl
      | ⟨1, _⟩ => exact absurd rfl hax)
    rfl

/-! ## The arrays the region finds -/

variable (m : (ℓ : Loc nD τ sig) → Buf (Elt Ideal) ℓ) (c : Dev nD)

/-- `x_t`, `reference_sample` and `W` as launched. -/
abbrev X : FVec Ideal S8192x256 .f32 := m ((c : Thread nD τ).loc main_arg0)
abbrev R : FVec Ideal S8192x256 .f32 := m ((c : Thread nD τ).loc main_arg1)
abbrev Wt : FVec Ideal S1x1 .f32 := m ((c : Thread nD τ).loc main_arg2)

/-- Window 0's array: `x_t` scaled by `1/64`. -/
theorem xs_apply (b : Fin 8192) (k : Fin 256) :
    (V m c main_v2 : S8192x256.Idx → EReal) (ix2 b k) = X m c (ix2 b k) * Ideal.ofBits .f32 0x3C800000#32 := by
  have e : (V m c main_v2 : S8192x256.Idx → EReal)
      = truncf .bf16 (mulf (X m c) (broadcastInDim S8192x256 ![] bcast_S_S8192x256 (constant (F := Ideal) S_ .f32 0x3C800000#32))) bitsLt_bf16_f32 := by
    dsimp only [Gen.V, Gen.hostOps0]; after_results <;> rfl
  rw [e]
  exact congrArg (X m c (ix2 b k) * ·) (splat_A _ _)

/-- Window 2's array: the queries' pre-scaled squared norms. -/
theorem xn_apply (b : Fin 8192) :
    (V m c main_v7 : S8192x1.Idx → EReal) (ix2 b (0 : Fin 1)) = Ideal.ofBits .f32 0xBC000000#32 * Cert.Spec.sq (X m c) b := by
  have e : (V m c main_v7 : S8192x1.Idx → EReal)
      = mulf (broadcastInDim S8192x1 ![] bcast_S_S8192x1 (constant (F := Ideal) S_ .f32 0xBC000000#32))
          (broadcastInDim S8192x1 ![0] bcast_S8192_S8192x1_0
            (Host.reduceAdd (F := Ideal) (mulf (X m c) (X m c)) (constant (F := Ideal) S_ .f32 0x00000000#32) reducesTo_S8192x256_S8192_d1 h_S_)) := by
    dsimp only [Gen.V, Gen.hostOps0]; after_results <;> rfl
  rw [e]
  exact congrArg₂ (· * ·) (splat_col _ _) ((col_of_vec _ b).trans (host_sq _ b))

/-- Window 3's array: the samples' pre-scaled squared norms, as a row. -/
theorem rn_apply (n : Fin 8192) :
    (V m c main_v13 : S1x8192.Idx → EReal) (ix2 (0 : Fin 1) n) = Ideal.ofBits .f32 0xBC000000#32 * Cert.Spec.sq (R m c) n := by
  have e : (V m c main_v13 : S1x8192.Idx → EReal)
      = shapeCast S1x8192 (mulf (broadcastInDim S8192x1 ![] bcast_S_S8192x1 (constant (F := Ideal) S_ .f32 0xBC000000#32))
          (broadcastInDim S8192x1 ![0] bcast_S8192_S8192x1_0
            (Host.reduceAdd (F := Ideal) (mulf (R m c) (R m c)) (constant (F := Ideal) S_ .f32 0x00000000#32) reducesTo_S8192x256_S8192_d1 h_S_)))
          shapeCasts_S8192x1_S1x8192 := by
    dsimp only [Gen.V, Gen.hostOps0]; after_results <;> rfl
  rw [e]
  refine (row_of_col _ n).trans ?_
  exact congrArg₂ (· * ·) (splat_col _ _) ((col_of_vec _ n).trans (host_sq _ n))

/-- Window 4's array, left half: the samples. -/
theorem cat_r_apply (n : Fin 8192) (k : Fin 256) :
    (V m c main_v17 : S8192x512.Idx → EReal) (ix2 n (colLo k)) = R m c (ix2 n k) := by
  have e : (V m c main_v17 : S8192x512.Idx → EReal)
      = concatenate S8192x512 1 [⟨S8192x256, truncf .bf16 (R m c) bitsLt_bf16_f32⟩,
          ⟨S8192x256, truncf .bf16 (mulf (R m c) (R m c)) bitsLt_bf16_f32⟩] concatenates_S8192x256_S8192x256_S8192x512_d1 := by
    dsimp only [Gen.V, Gen.hostOps0]; after_results <;> rfl
  rw [e]
  exact cat_lo _ _ n k

/-- Window 4's array, right half: the squared samples. -/
theorem cat_r2_apply (n : Fin 8192) (k : Fin 256) :
    (V m c main_v17 : S8192x512.Idx → EReal) (ix2 n (colHi k)) = R m c (ix2 n k) * R m c (ix2 n k) := by
  have e : (V m c main_v17 : S8192x512.Idx → EReal)
      = concatenate S8192x512 1 [⟨S8192x256, truncf .bf16 (R m c) bitsLt_bf16_f32⟩,
          ⟨S8192x256, truncf .bf16 (mulf (R m c) (R m c)) bitsLt_bf16_f32⟩] concatenates_S8192x256_S8192x256_S8192x512_d1 := by
    dsimp only [Gen.V, Gen.hostOps0]; after_results <;> rfl
  rw [e]
  exact cat_hi _ _ n k

/-! ## The blocks: each window's block at a grid point is its array at the block's offset

The block index of every window at grid point `t`, decided once over the 32 points. -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)

/-- Window 0's block (the scaled queries) at a position. -/
theorem blk0_apply (t : Fin cfg0.N) (p : Fin 1024) (k : Fin 256) :
    (iblk m c 0 t : FVec Ideal S1024x256 .bf16) (ix2 p k) = (V m c main_v2 : S8192x256.Idx → EReal) (ix2 (qrow t.val p) k) := by
  have hN : t.val < 32 := lt_of_lt_of_eq t.isLt (show cfg0.N = 32 from N_0)
  unfold iblk
  rw [View.read_apply]
  show V m c main_v2 _ = V m c main_v2 _
  congr 1
  funext a
  apply Fin.ext
  match a with
  | ⟨0, _⟩ =>
    show win0_0.index t 0 * 1024 + 1 * p.val = 1024 * (t.val / 4 % 8) + p.val
    rw [(idx0 t).1] <;> omega
  | ⟨1, _⟩ =>
    show win0_0.index t 1 * 256 + 1 * k.val = k.val
    rw [(idx0 t).2] <;> omega

theorem idx1 : ∀ t : Fin cfg0.N, win0_1.index t 0 = t.val / 4 ∧ win0_1.index t 1 = 0 :=
  (by decide +kernel : ∀ t : Fin grid0.N, win0_1.index t 0 = t.val / 4 ∧ win0_1.index t 1 = 0)

/-- Window 1's block (the queries) at a position. -/
theorem blk1_apply (t : Fin cfg0.N) (p : Fin 1024) (k : Fin 256) :
    (iblk m c 1 t : FVec Ideal S1024x256 .f32) (ix2 p k) = (V m c main_arg0 : S8192x256.Idx → EReal) (ix2 (qrow t.val p) k) := by
  have hN : t.val < 32 := lt_of_lt_of_eq t.isLt (show cfg0.N = 32 from N_0)
  unfold iblk
  rw [View.read_apply]
  show V m c main_arg0 _ = V m c main_arg0 _
  congr 1
  funext a
  apply Fin.ext
  match a with
  | ⟨0, _⟩ =>
    show win0_1.index t 0 * 1024 + 1 * p.val = 1024 * (t.val / 4 % 8) + p.val
    rw [(idx1 t).1] <;> omega
  | ⟨1, _⟩ =>
    show win0_1.index t 1 * 256 + 1 * k.val = k.val
    rw [(idx1 t).2] <;> omega

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- Window 2's block (the queries' squared norms) at a position. -/
theorem blk2_apply (t : Fin cfg0.N) (p : Fin 1024) :
    (iblk m c 2 t : FVec Ideal S1024x1 .f32) (ix2 p (0 : Fin 1)) = (V m c main_v7 : S8192x1.Idx → EReal) (ix2 (qrow t.val p) (0 : Fin 1)) := by
  have hN : t.val < 32 := lt_of_lt_of_eq t.isLt (show cfg0.N = 32 from N_0)
  unfold iblk
  rw [View.read_apply]
  show V m c main_v7 _ = V m c main_v7 _
  congr 1
  funext a
  apply Fin.ext
  match a with
  | ⟨0, _⟩ =>
    show win0_2.index t 0 * 1024 + 1 * p.val = 1024 * (t.val / 4 % 8) + p.val
    rw [(idx2 t).1] <;> omega
  | ⟨1, _⟩ =>
    show win0_2.index t 1 * 1 + 1 * 0 = 0
    rw [(idx2 t).2] <;> omega

theorem idx3 : ∀ t : Fin cfg0.N, win0_3.index t 0 = 0 ∧ win0_3.index t 1 = t.val % 4 :=
  (by decide +kernel : ∀ t : Fin grid0.N, win0_3.index t 0 = 0 ∧ win0_3.index t 1 = t.val % 4)

/-- Window 3's block (the samples' squared norms) at a position. -/
theorem blk3_apply (t : Fin cfg0.N) (q : Fin 2048) :
    (iblk m c 3 t : FVec Ideal S1x2048 .f32) (ix2 (0 : Fin 1) q) = (V m c main_v13 : S1x8192.Idx → EReal) (ix2 (0 : Fin 1) (srow t.val q)) := by
  have hN : t.val < 32 := lt_of_lt_of_eq t.isLt (show cfg0.N = 32 from N_0)
  unfold iblk
  rw [View.read_apply]
  show V m c main_v13 _ = V m c main_v13 _
  congr 1
  funext a
  apply Fin.ext
  match a with
  | ⟨0, _⟩ =>
    show win0_3.index t 0 * 1 + 1 * 0 = 0
    rw [(idx3 t).1] <;> omega
  | ⟨1, _⟩ =>
    show win0_3.index t 1 * 2048 + 1 * q.val = 2048 * (t.val % 4) + q.val
    rw [(idx3 t).2] <;> omega

theorem idx4 : ∀ t : Fin cfg0.N, win0_4.index t 0 = t.val % 4 ∧ win0_4.index t 1 = 0 :=
  (by decide +kernel : ∀ t : Fin grid0.N, win0_4.index t 0 = t.val % 4 ∧ win0_4.index t 1 = 0)

/-- Window 4's block (the packed samples) at a position. -/
theorem blk4_apply (t : Fin cfg0.N) (q : Fin 2048) (col : Fin 512) :
    (iblk m c 4 t : FVec Ideal S2048x512 .bf16) (ix2 q col) = (V m c main_v17 : S8192x512.Idx → EReal) (ix2 (srow t.val q) col) := by
  have hN : t.val < 32 := lt_of_lt_of_eq t.isLt (show cfg0.N = 32 from N_0)
  unfold iblk
  rw [View.read_apply]
  show V m c main_v17 _ = V m c main_v17 _
  congr 1
  funext a
  apply Fin.ext
  match a with
  | ⟨0, _⟩ =>
    show win0_4.index t 0 * 2048 + 1 * q.val = 2048 * (t.val % 4) + q.val
    rw [(idx4 t).1] <;> omega
  | ⟨1, _⟩ =>
    show win0_4.index t 1 * 512 + 1 * col.val = col.val
    rw [(idx4 t).2] <;> omega

theorem idx5 : ∀ t : Fin cfg0.N, win0_5.index t 0 = 0 ∧ win0_5.index t 1 = 0 :=
  (by decide +kernel : ∀ t : Fin grid0.N, win0_5.index t 0 = 0 ∧ win0_5.index t 1 = 0)

/-- Window 5's block (`W`) at a position. -/
theorem blk5_apply (t : Fin cfg0.N)  :
    (iblk m c 5 t : FVec Ideal S1x1 .f32) (ix2 (0 : Fin 1) (0 : Fin 1)) = (V m c main_arg2 : S1x1.Idx → EReal) (ix2 (0 : Fin 1) (0 : Fin 1)) := by
  have hN : t.val < 32 := lt_of_lt_of_eq t.isLt (show cfg0.N = 32 from N_0)
  unfold iblk
  rw [View.read_apply]
  show V m c main_arg2 _ = V m c main_arg2 _
  congr 1
  funext a
  apply Fin.ext
  match a with
  | ⟨0, _⟩ =>
    show win0_5.index t 0 * 1 + 1 * 0 = 0
    rw [(idx5 t).1] <;> omega
  | ⟨1, _⟩ =>
    show win0_5.index t 1 * 1 + 1 * 0 = 0
    rw [(idx5 t).2] <;> omega

end Cert.KernelIdeal.Blocks

end
-- ==== Proof.Accum.lean ====
/-
  The two accumulators the kernel carries along the sample axis, as sums.

  At grid point `t` the tile of weights is, at position (p, q), the weight (in the kernel's spelling) of
  sample row `srow t q` for query row `qrow t p`. Along one run of four points `4j, …, 4j+3` the wide
  accumulator is reset to zero and then gains, at each point, the tile times the packed samples; the
  row sums likewise gain the tile's row sums. So after point `t` each holds zero plus the sum of the
  addends of the points of its run up to `t`.
-/
import proofs.«164604_j42932493090900_2_alg».proof.Proof.Gen.KernelIdeal.Value
import proofs.«164604_j42932493090900_2_alg».proof.Proof.Pieces
import proofs.«164604_j42932493090900_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx
open Cert.KernelIdeal.Payload (colLo colHi idx2_ext)
open Cert.KernelIdeal.Blocks (qrow srow X R Wt)

variable (m : (ℓ : Loc nD τ sig) → Buf (Elt Ideal) ℓ) (c : Dev nD)

/-- The tile of weights at grid point `t`. -/
def tile (t : Fin cfg0.N) : FVec Ideal S1024x2048 .f32 :=
  k0_pay5 (F := Ideal) (iblk m c 0 t) (iblk m c 4 t) (iblk m c 2 t) (iblk m c 3 t)

/-- … is the table of weights of the point's sample rows for the point's query rows. -/
theorem tile_apply (t : Fin cfg0.N) (p : Fin 1024) (q : Fin 2048) :
    tile m c t (ix2 p q) = Cert.Spec.wK (X m c) (R m c) (qrow t.val p) (srow t.val q) := by
  unfold tile
  rw [Payload.weight_apply]
  unfold Cert.Spec.wK
  refine congrArg Ideal.exp (congrArg₂ (· + ·) (congrArg₂ (· + ·) (Finset.sum_congr rfl fun k _ => congrArg₂ (· * ·) ?_ ?_) ?_) ?_)
  · exact (Blocks.blk0_apply m c t p k).trans (Blocks.xs_apply m c _ k)
  · exact (Blocks.blk4_apply m c t q (colLo k)).trans (Blocks.cat_r_apply m c _ k)
  · exact (Blocks.blk2_apply m c t p).trans (Blocks.xn_apply m c _)
  · exact (Blocks.blk3_apply m c t q).trans (Blocks.rn_apply m c _)

/-! ## What one grid point adds -/

/-- What point `n` adds to the wide accumulator: its tile times its block of packed samples. -/
def accAdd (n : ℕ) (i : S1024x512.Idx) : EReal :=
  if h : n < cfg0.N then
    ∑ q : Fin 2048, tile m c ⟨n, h⟩ (ix2 (i 0) q) * (iblk m c 4 ⟨n, h⟩ : FVec Ideal S2048x512 .bf16) (ix2 q (i 1))
  else 0

/-- What point `n` adds to the row sums: its tile's row sums. -/
def sumAdd (n : ℕ) (i : S1024x1.Idx) : EReal :=
  if h : n < cfg0.N then ∑ q : Fin 2048, tile m c ⟨n, h⟩ (ix2 (i 0) q) else 0

/-- One update of the wide accumulator at point `t`. -/
theorem acc_step (t : Fin cfg0.N) (xs0 : FVec Ideal S1024x512 .f32) (i : S1024x512.Idx) :
    k0_pay7 (F := Ideal) (iblk m c 0 t) (iblk m c 4 t) (iblk m c 2 t) (iblk m c 3 t) xs0 i = xs0 i + accAdd m c t.val i := by
  obtain ⟨p, col, rfl⟩ : ∃ (p : Fin 1024) (col : Fin 512), i = ix2 p col := ⟨i 0, i 1, eq_ix2 i⟩
  rw [Payload.acc_apply]
  unfold accAdd
  rw [dif_pos t.isLt]
  rfl

/-- One update of the row sums at point `t`. -/
theorem sum_step (t : Fin cfg0.N) (xs1 : FVec Ideal S1024x1 .f32) (i : S1024x1.Idx) :
    k0_pay6 (F := Ideal) (iblk m c 0 t) (iblk m c 4 t) (iblk m c 2 t) (iblk m c 3 t) xs1 i = xs1 i + sumAdd m c t.val i := by
  obtain ⟨p, u, rfl⟩ : ∃ (p : Fin 1024) (u : Fin 1), i = ix2 p u := ⟨i 0, i 1, eq_ix2 i⟩
  obtain rfl : u = 0 := Subsingleton.elim _ _
  rw [Payload.sum_apply]
  unfold sumAdd
  rw [dif_pos t.isLt]
  rfl

/-! ## The folds: after point `t` each accumulator is zero plus the addends of its run so far -/

theorem acc_fold (t : Fin cfg0.N) (i : S1024x512.Idx) :
    (outsAt0 m c t.val t.isLt).2.1 i
      = Ideal.ofBits .f32 0x00000000#32 + ∑ s ∈ Finset.range (t.val % 4 + 1), accAdd m c (4 * (t.val / 4) + s) i := by
  have hN : t.val < 32 := lt_of_lt_of_eq t.isLt (show cfg0.N = 32 from N_0)
  rw [Value.soutsAt0_0_eq]
  refine Pipeline.accAt_add_apply (N := cfg0.N) _ _ (fun _ => Ideal.ofBits .f32 0x00000000#32) (accAdd m c)
    (4 * (t.val / 4)) 3 ?_ ?_ (t.val % 4) (by omega) _ i
  · intro h i
    show Value.scAt0_0 m c (4 * (t.val / 4)) h _ i = _
    unfold Value.scAt0_0
    rw [dif_pos (by omega), dif_neg (by omega), Pieces.acc_A]
    refine (acc_step m c ⟨_, h⟩ _ i).trans ?_
    rw [Payload.acc_zero]
  · intro n h acc i hb he
    show Value.scAt0_0 m c n h acc i = _
    unfold Value.scAt0_0
    have h0 : ¬ n % 4 = 0 := by omega
    rw [dif_neg h0]
    by_cases h1 : n % 4 = 3
    · rw [dif_pos h1, Pieces.acc_C]; exact acc_step m c ⟨n, h⟩ acc i
    · rw [dif_neg h1, Pieces.acc_B]; exact acc_step m c ⟨n, h⟩ acc i

theorem sum_fold (t : Fin cfg0.N) (i : S1024x1.Idx) :
    (outsAt0 m c t.val t.isLt).2.2 i
      = Ideal.ofBits .f32 0x00000000#32 + ∑ s ∈ Finset.range (t.val % 4 + 1), sumAdd m c (4 * (t.val / 4) + s) i := by
  have hN : t.val < 32 := lt_of_lt_of_eq t.isLt (show cfg0.N = 32 from N_0)
  rw [Value.soutsAt0_1_eq]
  refine Pipeline.accAt_add_apply (N := cfg0.N) _ _ (fun _ => Ideal.ofBits .f32 0x00000000#32) (sumAdd m c)
    (4 * (t.val / 4)) 3 ?_ ?_ (t.val % 4) (by omega) _ i
  · intro h i
    show Value.scAt0_1 m c (4 * (t.val / 4)) h _ i = _
    unfold Value.scAt0_1
    rw [dif_pos (by omega), dif_neg (by omega), Pieces.sum_A]
    refine (sum_step m c ⟨_, h⟩ _ i).trans ?_
    rw [Payload.sum_zero]
  · intro n h acc i hb he
    show Value.scAt0_1 m c n h acc i = _
    unfold Value.scAt0_1
    have h0 : ¬ n % 4 = 0 := by omega
    rw [dif_neg h0]
    by_cases h1 : n % 4 = 3
    · rw [dif_pos h1, Pieces.sum_C]; exact sum_step m c ⟨n, h⟩ acc i
    · rw [dif_neg h1, Pieces.sum_B]; exact sum_step m c ⟨n, h⟩ acc i

end Cert.KernelIdeal.Accum

end
-- ==== Proof.TileSum.lean ====
/-
  A sum over 8192 positions taken as four consecutive tiles of 2048: position `n = 2048 j + q`.
  Holds in every additive commutative monoid, in particular on the extended reals, where no
  finiteness is needed to regroup a sum.
-/
import Mathlib

namespace Cert.TileSum

/-- The position `2048 j + q` of entry `q` of tile `j`. -/
def pos (j : Fin 4) (q : Fin 2048) : Fin 8192 := ⟨2048 * j.val + q.val, by omega⟩

@[simp] theorem pos_val (j : Fin 4) (q : Fin 2048) : (pos j q).val = 2048 * j.val + q.val := rfl

/-- The tiles are a bijection of `Fin 4 × Fin 2048` with `Fin 8192`. -/
def tiles : Fin 4 × Fin 2048 ≃ Fin 8192 where
  toFun p := pos p.1 p.2
  invFun n := (⟨n.val / 2048, by omega⟩, ⟨n.val % 2048, Nat.mod_lt _ (by norm_num)⟩)
  left_inv p := by
    rcases p with ⟨j, q⟩
    ext <;> simp [pos] <;> omega
  right_inv n := by
    ext; simp [pos]; omega

/-- A sum over all 8192 positions is the sum over the four tiles of the tile's sum. -/
theorem sum_tiles {M : Type*} [AddCommMonoid M] (f : Fin 8192 → M) :
    ∑ n : Fin 8192, f n = ∑ j : Fin 4, ∑ q : Fin 2048, f (pos j q) := by
  rw [← Fintype.sum_prod_type' (f := fun j q => f (pos j q))]
  exact (Equiv.sum_comp tiles f).symm

end Cert.TileSum
-- ==== Proof.KernelValue.lean ====
/-
  The kernel's result array is the specification built from the kernel's spelling of the weight.

  At the last point `t` (`t % 4 = 3`) of a run the carried accumulators hold zero plus the addends of
  the run's four points; the four sample tiles `2048·s + q` are all 8192 sample rows, so each is one
  sum over the samples: `Σ_n w·r` and `Σ_n w·r²` in the two column halves of the wide accumulator and
  `Σ_n w` in the row sums. The output block stored there is the closing formula of these, which is the
  specification at the block's rows. Point `t` writes the block back at rows `1024·(t/4) …`; the eight
  last points cover the array.
-/
import proofs.«164604_j42932493090900_2_alg».proof.Proof.Accum
import proofs.«164604_j42932493090900_2_alg».proof.Proof.TileSum

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Payload (colLo colHi idx2_ext)
open Cert.KernelIdeal.Blocks (qrow srow X R Wt)
open Cert.KernelIdeal.Accum (tile accAdd sumAdd)

variable (m : (ℓ : Loc nD τ sig) → Buf (Elt Ideal) ℓ) (c : Dev nD)

/-! ## The accumulators at the last point of a run -/

/-- The points of `t`'s run see `t`'s query rows, and point `s` of the run sees sample tile `s`. -/
theorem qrow_run (t s : ℕ) (hs : s < 4) (p : Fin 1024) : qrow (4 * (t / 4) + s) p = qrow t p :=
  Fin.ext (by show 1024 * ((4 * (t / 4) + s) / 4 % 8) + p.val = 1024 * (t / 4 % 8) + p.val; omega)

theorem srow_run (t : ℕ) (s : Fin 4) (q : Fin 2048) : srow (4 * (t / 4) + s.val) q = Cert.TileSum.pos s q :=
  Fin.ext (by show 2048 * ((4 * (t / 4) + s.val) % 4) + q.val = 2048 * s.val + q.val; have := s.isLt; omega)

/-- Column `col` of the wide accumulator after the last point of a run, when the packed samples' column
    `col` is the function `f` of the sample row: the sum over all samples of weight times `f`. -/
theorem acc_total (t : Fin cfg0.N) (h3 : t.val % 4 = 3) (p : Fin 1024) (col : Fin 512) (f : Fin 8192 → EReal)
    (hf : ∀ (u : Fin cfg0.N) (q : Fin 2048), (iblk m c 4 u : FVec Ideal S2048x512 .bf16) (ix2 q col) = f (srow u.val q)) :
    (outsAt0 m c t.val t.isLt).2.1 (ix2 p col)
      = ∑ n : Fin 8192, Cert.Spec.wK (X m c) (R m c) (qrow t.val p) n * f n := by
  have hN : t.val < 32 := lt_of_lt_of_eq t.isLt (show cfg0.N = 32 from N_0)
  rw [Accum.acc_fold, h3, Ideal.ofBits_zero_f32, zero_add, Finset.sum_range, Cert.TileSum.sum_tiles]
  refine Finset.sum_congr rfl fun s _ => ?_
  have hs : 4 * (t.val / 4) + s.val < cfg0.N := lt_of_lt_of_eq (by have := s.isLt; omega) N_0.symm
  unfold accAdd
  rw [dif_pos hs]
  refine Finset.sum_congr rfl fun q _ => ?_
  rw [Accum.tile_apply, hf ⟨_, hs⟩ q]
  show Cert.Spec.wK _ _ (qrow (4 * (t.val / 4) + s.val) p) (srow (4 * (t.val / 4) + s.val) q) * f (srow (4 * (t.val / 4) + s.val) q) = _
  rw [qrow_run t.val s.val s.isLt p, srow_run t.val s q]

/-- The row sums after the last point of a run: the sum over all samples of the weight. -/
theorem sum_total (t : Fin cfg0.N) (h3 : t.val % 4 = 3) (p : Fin 1024) :
    (outsAt0 m c t.val t.isLt).2.2 (ix2 p (0 : Fin 1))
      = ∑ n : Fin 8192, Cert.Spec.wK (X m c) (R m c) (qrow t.val p) n := by
  have hN : t.val < 32 := lt_of_lt_of_eq t.isLt (show cfg0.N = 32 from N_0)
  rw [Accum.sum_fold, h3, Ideal.ofBits_zero_f32, zero_add, Finset.sum_range, Cert.TileSum.sum_tiles]
  refine Finset.sum_congr rfl fun s _ => ?_
  have hs : 4 * (t.val / 4) + s.val < cfg0.N := lt_of_lt_of_eq (by have := s.isLt; omega) N_0.symm
  unfold sumAdd
  rw [dif_pos hs]
  refine Finset.sum_congr rfl fun q _ => ?_
  rw [Accum.tile_apply]
  show Cert.Spec.wK _ _ (qrow (4 * (t.val / 4) + s.val) p) (srow (4 * (t.val / 4) + s.val) q) = _
  rw [qrow_run t.val s.val s.isLt p, srow_run t.val s q]

/-! ## The output block at the last point of a run -/

/-- The two column halves of the wide accumulator, read through their rectangles. -/
theorem ld_lo (A : FVec Ideal S1024x512 .f32) (p : Fin 1024) (d : Fin 256) :
    View.ld (Val := Elt Ideal) (e' := .f32) A Pieces.lo (ix2 p d) = A (ix2 p (colLo d)) :=
  congrArg A (idx2_ext _ _ (by show 0 + 1 * p.val = p.val; omega) (by show 0 + 1 * d.val = d.val; omega))

theorem ld_hi (A : FVec Ideal S1024x512 .f32) (p : Fin 1024) (d : Fin 256) :
    View.ld (Val := Elt Ideal) (e' := .f32) A Pieces.hi (ix2 p d) = A (ix2 p (colHi d)) :=
  congrArg A (idx2_ext _ _ (by show 0 + 1 * p.val = p.val; omega) (by show 256 + 1 * d.val = 256 + d.val; omega))

/-- What the last point of a run leaves in the output's staging buffer, in terms of the accumulators it
    leaves: the closing formula of them. -/
theorem out_of_acc (t : Fin cfg0.N) (h0 : ¬t.val % 4 = 0) (h3 : t.val % 4 = 3) :
    (outsAt0 m c t.val t.isLt).1
      = k0_pay1 (F := Ideal) (View.ld ((outsAt0 m c t.val t.isLt).2.1) Pieces.lo) (View.ld ((outsAt0 m c t.val t.isLt).2.1) Pieces.hi)
          (iblk m c 1 t) ((outsAt0 m c t.val t.isLt).2.2) (iblk m c 5 t) := by
  rw [outsAt0_C m c t h0 h3]
  dsimp only
  rw [Pieces.out_C, Pieces.acc_C, Pieces.sum_C]

/-- The output block at the last point of a run is the specification at the block's rows. -/
theorem out_eq (t : Fin cfg0.N) (h3 : t.val % 4 = 3) (p : Fin 1024) (d : Fin 256) :
    (outsAt0 m c t.val t.isLt).1 (ix2 p d)
      = Cert.Spec.out (Cert.Spec.wK (X m c) (R m c)) (X m c) (R m c) (Wt m c) (qrow t.val p) d := by
  have h0 : ¬t.val % 4 = 0 := by omega
  have hx : (iblk m c 1 t : FVec Ideal S1024x256 .f32) (ix2 p d) = X m c (ix2 (qrow t.val p) d) :=
    (Blocks.blk1_apply m c t p d).trans (congrFun (V_main_arg0 m c) _)
  rw [out_of_acc m c t h0 h3, Payload.out_apply]
  unfold Cert.Spec.out
  refine congrArg (Ideal.div _) (congrArg₂ (· + ·) (congrArg₂ (· * ·) ?_ (congrArg₂ (· + ·) (congrArg₂ (· - ·) ?_
    (congrArg₂ (· * ·) (congrArg (_ * ·) hx) ?_)) (congrArg₂ (· * ·) (congrArg₂ (· * ·) hx hx) ?_))) rfl)
  · exact (Blocks.blk5_apply m c t).trans (congrFun (V_main_arg2 m c) _)
  · refine (ld_hi _ p d).trans (acc_total m c t h3 p (colHi d) (fun n => R m c (ix2 n d) * R m c (ix2 n d)) fun u q => ?_)
    exact (Blocks.blk4_apply m c u q (colHi d)).trans (Blocks.cat_r2_apply m c _ d)
  · refine (ld_lo _ p d).trans (acc_total m c t h3 p (colLo d) (fun n => R m c (ix2 n d)) fun u q => ?_)
    exact (Blocks.blk4_apply m c u q (colLo d)).trans (Blocks.cat_r_apply m c _ d)
  · exact sum_total m c t h3 p

/-! ## From the blocks to the array -/

/-- The result array the kernel leaves. -/
def G : S8192x256.Idx → EReal :=
  fun i => Cert.Spec.out (Cert.Spec.wK (X m c) (R m c)) (X m c) (R m c) (Wt m c) (i 0) (i 1)

theorem idx6 : ∀ t : Fin cfg0.N, win0_6.index t 0 = t.val / 4 ∧ win0_6.index t 1 = 0 :=
  (by decide +kernel : ∀ t : Fin grid0.N, win0_6.index t 0 = t.val / 4 ∧ win0_6.index t 1 = 0)

/-- What a writing point writes back is its block of `G`. -/
theorem flushed_eq (t : Fin cfg0.N) (hf : (cfg0.win 6).flush t = true) :
    (dats m 0 c).flushed 6 t = ((cfg0.win 6).blk t).view.read (Elt Ideal) (G m c) := by
  have hN : t.val < 32 := lt_of_lt_of_eq t.isLt (show cfg0.N = 32 from N_0)
  have h3 : t.val % 4 = 3 := (flush0_6 t).mp hf
  rw [Value.flushed6]
  funext j
  show (outsAt0 m c t.val t.isLt).1 j = G m c (((cfg0.win 6).blk t).view.emb j)
  have hj0 : (j 0).val < 1024 := (j 0).isLt
  have hj1 : (j 1).val < 256 := (j 1).isLt
  have ej : j = ix2 (⟨(j 0).val, hj0⟩ : Fin 1024) (⟨(j 1).val, hj1⟩ : Fin 256) :=
    idx2_ext _ _ rfl rfl
  rw [ej, out_eq m c t h3]
  unfold G
  refine congrArg₂ (Cert.Spec.out _ _ _ _) (Fin.ext ?_) (Fin.ext ?_)
  · show 1024 * (t.val / 4 % 8) + (j 0).val = win0_6.index t 0 * 1024 + 1 * (j 0).val
    rw [(idx6 t).1]; omega
  · show (j 1).val = win0_6.index t 1 * 256 + 1 * (j 1).val
    rw [(idx6 t).2]; omega

/-- An index of the array is in point `t`'s block iff each coordinate is in the block's range. -/
theorem mem_blk (t : Fin cfg0.N) (i : S8192x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v18).slice (win0_6.rect t)).set ↔ _
  rw [View.set_slice_whole, Rect.mem_set_unit]
  exact Iff.rfl

/-- The last points of the eight runs cover the array: row `r` is in the block of point `4·(r/1024) + 3`. -/
theorem cover (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have ht : 4 * ((i 0).val / 1024) + 3 < cfg0.N := lt_of_lt_of_eq (by omega) N_0.symm
  refine ⟨⟨4 * ((i 0).val / 1024) + 3, ht⟩, (flush0_6 _).mpr (by show (4 * ((i 0).val / 1024) + 3) % 4 = 3; omega), ?_⟩
  rw [mem_blk]
  intro a
  have e := idx6 ⟨4 * ((i 0).val / 1024) + 3, ht⟩
  match a with
  | ⟨0, _⟩ =>
    show win0_6.index _ 0 * 1024 ≤ (i 0).val ∧ (i 0).val < win0_6.index _ 0 * 1024 + 1024
    rw [e.1]; show (4 * ((i 0).val / 1024) + 3) / 4 * 1024 ≤ (i 0).val ∧ (i 0).val < (4 * ((i 0).val / 1024) + 3) / 4 * 1024 + 1024
    omega
  | ⟨1, _⟩ =>
    show win0_6.index _ 1 * 256 ≤ (i 1).val ∧ (i 1).val < win0_6.index _ 1 * 256 + 256
    rw [e.2]; omega

/-- So the result array ends holding `G`. -/
theorem final : (dats m 0 c).arrAt 6 cfg0.N = G m c :=
  (dats m 0 c).arrAt_eq_of_cover 6 (G m c) (flushed_eq m c) (cover)

end Cert.KernelIdeal.KVal

/-! ## The run, read -/

namespace Cert.KernelIdeal.KVal

open Cert.KernelIdeal Cert.KernelIdeal.Gen Idealize.ShloMosaic Idealize.ShloMosaic.TcCoe Idealize.SL.Sem

/-- Every weakly fair execution of the idealized kernel ends with its result array at `G` of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KVal

end
-- ==== Proof.RefValue.lean ====
/-
  The reference's result, index by index, is the specification built from the reference's spelling of
  the weight. Read stage by stage: the two squared norms (host sums from `+0.0`), the cross term (a
  `dot_general` against the transposed samples, so entry (b, n) contracts row `b` of `x_t` with row
  `n` of `reference_sample`), the weight (the exponential of the negated expanded squared distance
  over 128), the row sums of the weights, the two products of the weight table with `r²` and with `r`,
  and the closing formula `1 / (W · M + 0.001)`.
-/
import proofs.«164604_j42932493090900_2_alg».proof.Proof.Gen.ReferenceIdeal.Read
import proofs.«164604_j42932493090900_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- Two rank-2 indices with the same coordinates are one index. -/
theorem idx2_ext {n0 n1 : Nat} (i j : (⟨2, ![n0, n1]⟩ : Shape).Idx) (h0 : (i 0).val = (j 0).val)
    (h1 : (i 1).val = (j 1).val) : i = j := by
  funext a; apply Fin.ext
  match a with
  | ⟨0, _⟩ => exact h0
  | ⟨1, _⟩ => exact h1

/-- Two rank-1 indices with the same coordinate are one index. -/
theorem idx1_ext {n0 : Nat} (i j : (⟨1, ![n0]⟩ : Shape).Idx) (h0 : (i 0).val = (j 0).val) : i = j := by
  funext a; apply Fin.ext
  match a with
  | ⟨0, _⟩ => exact h0

variable (X R : (⟨S8192x256, .f32⟩ : BufTy).Contents (Elt Ideal)) (W : (⟨S1x1, .f32⟩ : BufTy).Contents (Elt Ideal))

/-- The squared norm of row `b` of `x_t`. -/
theorem sqX (b : Fin 8192) : val_main_v1 (F := Ideal) X (ix1 b) = Cert.Spec.sq X b := by
  rw [val_main_v1_apply]
  unfold Cert.Spec.sq
  refine congrArg₂ (· + ·) rfl (Finset.sum_congr rfl fun k _ => ?_)
  rw [val_main_v0_apply, show idx_main_v1 (ix1 b) k = ix2 b k from idx2_ext _ _ rfl rfl]
  rfl

/-- The squared norm of row `n` of `reference_sample`. -/
theorem sqR (n : Fin 8192) : val_main_v3 (F := Ideal) R (ix1 n) = Cert.Spec.sq R n := by
  rw [val_main_v3_apply]
  unfold Cert.Spec.sq
  refine congrArg₂ (· + ·) rfl (Finset.sum_congr rfl fun k _ => ?_)
  rw [val_main_v2_apply, show idx_main_v3 (ix1 n) k = ix2 n k from idx2_ext _ _ rfl rfl]
  rfl

/-- The cross term: row `b` of `x_t` against row `n` of `reference_sample`. -/
theorem cross (b n : Fin 8192) :
    val_main_v5 (F := Ideal) X R (ix2 b n) = ∑ k : Fin 256, X (ix2 b k) * R (ix2 n k) := by
  rw [val_main_v5_apply]
  refine Finset.sum_congr rfl fun k _ => ?_
  rw [val_main_v4_apply, show lidx_main_v5 (ix2 b n) k = ix2 b k from idx2_ext _ _ rfl rfl,
    show idx_main_v4 (ridx_main_v5 (ix2 b n) k) = ix2 n k from idx2_ext _ _ rfl rfl]

/-- The weight of sample row `n` for query row `b`. -/
theorem weight (b n : Fin 8192) : val_main_v17 (F := Ideal) X R (ix2 b n) = Cert.Spec.wR X R b n := by
  rw [val_main_v17_apply, val_main_v16_apply, val_main_v14_apply, val_main_v13_apply, val_main_v10_apply,
    val_main_v8_apply, val_main_v6_apply, val_main_v9_apply, val_main_v7_apply, val_main_v12_apply,
    val_main_v11_apply, val_main_cst_1_apply, val_main_v15_apply, val_main_cst_2_apply,
    show idx_main_v6 (idx_main_v8 (ix2 b n)) = ix1 b from idx1_ext _ _ rfl,
    show idx_main_v7 (idx_main_v9 (ix2 b n)) = ix1 n from idx1_ext _ _ rfl,
    sqX, sqR, cross]
  rfl

/-- The row sum of the weights of query row `b`. -/
theorem wsum (b : Fin 8192) :
    val_main_v18 (F := Ideal) X R (ix1 b) = ∑ n : Fin 8192, Cert.Spec.wR X R b n := by
  rw [val_main_v18_apply, val_main_cst_3_apply]
  show Ideal.ofBits .f32 0x00000000#32 + _ = _
  rw [Ideal.ofBits_zero_f32, zero_add]
  refine Finset.sum_congr rfl fun n _ => ?_
  rw [show idx_main_v18 (ix1 b) n = ix2 b n from idx2_ext _ _ rfl rfl, weight]

/-- The weight table times the squared samples. -/
theorem wr2 (b : Fin 8192) (d : Fin 256) :
    val_main_v21 (F := Ideal) X R (ix2 b d) = ∑ n : Fin 8192, Cert.Spec.wR X R b n * (R (ix2 n d) * R (ix2 n d)) := by
  rw [val_main_v21_apply]
  refine Finset.sum_congr rfl fun n _ => ?_
  rw [val_main_v20_apply, show lidx_main_v21 (ix2 b d) n = ix2 b n from idx2_ext _ _ rfl rfl,
    show ridx_main_v21 (ix2 b d) n = ix2 n d from idx2_ext _ _ rfl rfl, weight]
  rfl

/-- The weight table times the samples. -/
theorem wr1 (b : Fin 8192) (d : Fin 256) :
    val_main_v24 (F := Ideal) X R (ix2 b d) = ∑ n : Fin 8192, Cert.Spec.wR X R b n * R (ix2 n d) := by
  rw [val_main_v24_apply]
  refine Finset.sum_congr rfl fun n _ => ?_
  rw [show lidx_main_v24 (ix2 b d) n = ix2 b n from idx2_ext _ _ rfl rfl,
    show ridx_main_v24 (ix2 b d) n = ix2 n d from idx2_ext _ _ rfl rfl, weight]

/-- The reference's result at row `b`, column `d`. -/
theorem result_apply (b : Fin 8192) (d : Fin 256) :
    val_main_v36 (F := Ideal) X R W (ix2 b d) = Cert.Spec.out (Cert.Spec.wR X R) X R W b d := by
  rw [val_main_v36_apply, val_main_v35_apply, val_main_cst_6_apply, val_main_v34_apply, val_main_v32_apply,
    val_main_v31_apply, val_main_v30_apply, val_main_v26_apply, val_main_v25_apply, val_main_v23_apply,
    val_main_v22_apply, val_main_cst_4_apply, val_main_v29_apply, val_main_v27_apply, val_main_v28_apply,
    val_main_v19_apply, val_main_v33_apply, val_main_cst_5_apply,
    show idx_main_v19 (idx_main_v28 (ix2 b d)) = ix1 b from idx1_ext _ _ rfl,
    show idx_main_v31 (ix2 b d) = ix2 0 0 from idx2_ext _ _ rfl rfl,
    wr2, wr1, wsum]
  rfl

/-- The reference's whole result array. -/
theorem result_eq :
    val_main_v36 (F := Ideal) X R W = fun i => Cert.Spec.out (Cert.Spec.wR X R) X R W (i 0) (i 1) := by
  funext i
  obtain ⟨b, d, rfl⟩ : ∃ (b : Fin 8192) (d : Fin 256), i = ix2 b d := ⟨i 0, i 1, eq_ix2 i⟩
  exact result_apply X R W b d

end Cert.ReferenceIdeal.RefValue

end
-- ==== Proof.Finite.lean ====
/-
  The precondition, decoded: `finite_inputs` is the conjunction of three `jnp.all(|a| < +inf)`, one per
  argument array. A conjunction of bits that is 1 has both bits 1; an all-reduction by `and` that is 1
  met a 1 at every position; and `|x| < +inf` on the extended reals says `x` is neither infinity.
  So under the precondition every entry of `x_t` and of `reference_sample` is a real number — what the
  identity between the two spellings of the weight needs.
-/
import proofs.«164604_j42932493090900_2_alg».proof.Pre_finite_inputs
import proofs.«164604_j42932493090900_2_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Idealize.ShloMosaic.ValueIdx

instance : Subsingleton Cert.Pre_finite_inputs.S_.Idx := ⟨fun a b => funext fun d => d.elim0⟩

/-- The pattern `0x7F800000` is `+inf`. -/
theorem ofBits_inf : Ideal.ofBits .f32 0x7F800000#32 = ⊤ := by
  simp [Ideal.ofBits, Ideal.ieee]

/-- `|x| < +inf` says `x` is a real number. -/
theorem finite_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

variable [Cert.Pre_finite_inputs.Facts]

/-- Under the precondition `x_t` and `reference_sample` have finite entries. -/
theorem of_pre (X R : FVec Ideal Cert.Pre_finite_inputs.S8192x256 .f32) (W : FVec Ideal Cert.Pre_finite_inputs.S1x1 .f32)
    (h : Cert.Pre_finite_inputs.fn (F := Ideal) X R W = fun _ => 1#1) :
    Cert.Spec.Finite X ∧ Cert.Spec.Finite R := by
  have h0 := congrFun h ix0
  dsimp only [Cert.Pre_finite_inputs.fn] at h0
  have h1 := (IntOp.andi_eq_one.mp h0).1
  have h2 := IntOp.andi_eq_one.mp h1
  exact ⟨fun i => finite_of_abs_lt (X i) (Host.reduce_andi_all _ _ _ _ _ h2.1 i),
    fun i => finite_of_abs_lt (R i) (Host.reduce_andi_all _ _ _ _ _ h2.2 i)⟩

end Cert.FiniteInputs

end
-- ==== Proof.lean ====
/-
  The proof of `Cert.Claim` for the Gaussian-kernel second-moment estimate
      out[b, d] = 1 / (W · Σ_n w[b, n] · (r[n, d] − x[b, d])² + 0.001),
      w[b, n] = exp(−‖x[b] − r[n]‖² / 128),
  with the square expanded: Σ_n w·r² − (2x)·Σ_n w·r + x²·Σ_n w.

  The three frames: the two kernel programs' frames are generated whole (three control cases of the
  body, two scratch accumulators carried along the sample axis of the grid); the reference has no
  kernel, and its frame is its run with the result dropped. The ideal pass rewrote nothing, so
  `preserves` is `True`.

  The algebraic claim. At the ideal instance the kernel's result array is the specification
  `Spec.out` built from the kernel's spelling of the weight (`KVal.run`: the four sample tiles of a row
  block re-grouped into one sum over the 8192 samples, which needs no finiteness), and the reference's
  is `Spec.out` built from the reference's spelling (`RefValue.result_eq`). The two spellings of the
  exponent — cross term pre-scaled by 1/64 and squared norms by −1/128, against the negated expanded
  squared distance divided by 128 — are one real number when the rows are finite (`Spec.w_eq`), which
  the precondition gives (`FiniteInputs.of_pre`).
-/
import proofs.«164604_j42932493090900_2_alg».proof.Defs
import proofs.«164604_j42932493090900_2_alg».proof.Proof.Gen.Kernel
import proofs.«164604_j42932493090900_2_alg».proof.Proof.Gen.Kernel.Skeleton
import proofs.«164604_j42932493090900_2_alg».proof.Proof.Gen.Kernel.Launch
import proofs.«164604_j42932493090900_2_alg».proof.Proof.Gen.Kernel.Points
import proofs.«164604_j42932493090900_2_alg».proof.Proof.Gen.Kernel.Frame
import proofs.«164604_j42932493090900_2_alg».proof.Proof.Gen.KernelIdeal
import proofs.«164604_j42932493090900_2_alg».proof.Proof.Gen.KernelIdeal.Skeleton
import proofs.«164604_j42932493090900_2_alg».proof.Proof.Gen.KernelIdeal.Launch
import proofs.«164604_j42932493090900_2_alg».proof.Proof.Gen.KernelIdeal.Points
import proofs.«164604_j42932493090900_2_alg».proof.Proof.Gen.KernelIdeal.Frame
import proofs.«164604_j42932493090900_2_alg».proof.Proof.Gen.ReferenceIdeal
import proofs.«164604_j42932493090900_2_alg».proof.Proof.Gen.Pre_finite_inputs
import proofs.«164604_j42932493090900_2_alg».proof.Proof.Gen.KernelIdeal.Value
import proofs.«164604_j42932493090900_2_alg».proof.Proof.Gen.ReferenceIdeal.Run
import proofs.«164604_j42932493090900_2_alg».proof.Proof.Gen.ReferenceIdeal.Read
import proofs.«164604_j42932493090900_2_alg».proof.Proof.KernelValue
import proofs.«164604_j42932493090900_2_alg».proof.Proof.RefValue
import proofs.«164604_j42932493090900_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification; on finite inputs the two spellings of the weight agree. -/
theorem algebraic : Cert.algebraic_KernelIdeal_ReferenceIdeal := by
  intro m ρ m' ρ' hpre hagree
  refine ⟨fun c => Cert.KernelIdeal.KVal.G m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq,
    (hagree c).1, (hagree c).2.1, (hagree c).2.2]
  obtain ⟨hX, hR⟩ := Cert.FiniteInputs.of_pre _ _ _ (hpre c)
  funext i
  exact (Cert.Spec.out_congr hX hR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
